-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S32x2048x64 : Shape := ⟨3, ![32, 2048, 64]⟩
abbrev S2x2048x2048 : Shape := ⟨3, ![2, 2048, 2048]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x2048x2048 : Shape := ⟨3, ![1, 2048, 2048]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 13
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i1⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x2048x2048, .i1⟩
  | .hbm, ⟨8, _⟩ => ⟨S2x2048x2048, .i32⟩
  | .hbm, ⟨9, _⟩ => ⟨S32x2048x64, .f32⟩
  | .hbm, ⟨10, _⟩ => ⟨S32x2048x2048, .f32⟩
  | .hbm, ⟨11, _⟩ => ⟨S2x16x2048x64, .f32⟩
  | .hbm, ⟨12, _⟩ => ⟨S2x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x2048, .i32⟩
  | .local _ .vmem, ⟨7, _⟩ => ⟨S1x2048x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 3 → Nat :=
  let c0_8 : Index := 0#32
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_9 : Index := 0#32
  ![0, v11.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x64_S32x2048x64 : S2x16x2048x64.ShapeCasts S32x2048x64
  shapeCasts_S2x1x2048x2048_S2x2048x2048 : S2x1x2048x2048.ShapeCasts S2x2048x2048
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  inb_S1x512x2048_S1x512x2048_0_0_0 : ∀ a, (![0, 0, 0] : Fin 3 → Nat) a + S1x512x2048.size a ≤ S1x512x2048.size a
  shapeCasts_S512x2048_S1x512x2048 : S512x2048.ShapeCasts S1x512x2048
  shapeCasts_S32x2048x64_S2x16x2048x64 : S32x2048x64.ShapeCasts S2x16x2048x64
  shapeCasts_S32x2048x2048_S2x16x2048x2048 : S32x2048x2048.ShapeCasts S2x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x2048.size a ≤ S1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S2x2048x2048.size a
  hwx0_3 : ∀ i : grid0.Coords, EltTy.bits .i32 = 32 ∨ (Rect.block (s := S2x2048x2048) S1x2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048x2048, .i1⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S_, .f32⟩
  | .hbm, ⟨23, _⟩ => ⟨S2x16x2048, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S2x16x2048x1, .f32⟩
  | .hbm, ⟨32, _⟩ => ⟨S2x16x2048x2048, .f32⟩
  | .hbm, ⟨33, _⟩ => ⟨S2x16x2048x2048, .f32⟩
  | .hbm, ⟨34, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_v4 : Ref sig .tc := ⟨.hbm, 19, rfl⟩
abbrev main_cst_3 : Ref sig .tc := ⟨.hbm, 20, rfl⟩
abbrev main_v5 : Ref sig .tc := ⟨.hbm, 21, rfl⟩
abbrev main_cst_4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Masked, clipped attention on the extended reals, index by index.

  For queries q, keys k, values v of shape [2, 16, 2048, 64] and a one-bit mask of shape [2, 1, 2048, 2048]:
  the raw score of query row i against key row j is the dot product over the 64 features, divided by 8 (the
  square root of the feature count); it is clipped into [lo, hi], and where the mask bit of (batch, i, j) is not set
  it is replaced by the fill value. A row of 2048 scores is turned into probabilities by the usual softmax: subtract
  the row's maximum (a fold of max from the -infinity word), exponentiate, divide by the row's sum. The attention
  output at (i, d) is the sum over key rows j of probability(i, j) times v(j, d).

  The four float words (lo, hi, fill, -infinity) are kept as words: both programs spell the same ones, so they are
  never evaluated. Only the scale needs its value: the word for 8 denotes the real 8 and the word for 0.125 the real
  1/8, and dividing an extended real by 8 is multiplying it by 1/8.
-/
import Idealize.ShloMosaic.PureOps.Ideal.Laws
import Idealize.ShloMosaic.Lib.ValueIdx

noncomputable section

open scoped BigOperators

namespace Cert.Attn

open Idealize.ShloMosaic Idealize.ShloMosaic.ValueIdx

/-- The lower clip bound's word (about 1e-9). -/
abbrev cLo : EReal := Ideal.ofBits .f32 0x3089705F#32
/-- The upper clip bound's word (1e9). -/
abbrev cHi : EReal := Ideal.ofBits .f32 0x4E6E6B28#32
/-- The fill value's word (-1e9) for masked-out positions. -/
abbrev cFill : EReal := Ideal.ofBits .f32 0xCE6E6B28#32
/-- The word the row maximum is folded from (-infinity). -/
abbrev cBot : EReal := Ideal.ofBits .f32 0xFF800000#32
/-- The divisor's word (8.0). -/
abbrev cEight : EReal := Ideal.ofBits .f32 0x41000000#32
/-- The multiplier's word (0.125). -/
abbrev cEighth : EReal := Ideal.ofBits .f32 0x3E000000#32

/-- The word 8.0 denotes the real 8. -/
theorem cEight_eq : cEight = ((8 : ℝ) : EReal) := by
  simp [Ideal.ofBits, Ideal.ieee, -EReal.coe_mul]; norm_num

/-- The word 0.125 denotes the real 1/8. -/
theorem cEighth_eq : cEighth = ((1 / 8 : ℝ) : EReal) := by
  simp [Ideal.ofBits, Ideal.ieee, -EReal.coe_mul]; norm_num

/-- Multiplying by the word 0.125 is dividing by the word 8.0, on every extended real. -/
theorem mul_eighth_eq_div_eight (x : EReal) : x * cEighth = Ideal.div x cEight := by
  rw [cEight_eq, cEighth_eq, Ideal.div_coe (by norm_num : (8 : ℝ) ≠ 0)]

/-- A 32-bit mask word counts as set when it is not zero. -/
def maskBit (w : BitVec 32) : BitVec 1 := IntOp.cmpi .ne w 0#32

/-- A one-bit mask widened to 32 bits with zeros and then tested against zero is the bit itself. -/
theorem maskBit_setWidth (b : BitVec 1) : maskBit (b.setWidth 32) = b := by
  rcases BitVec.eq_zero_or_eq_one b with h | h <;> subst h <;> decide

/-- One score: the raw dot product `s` divided by 8, clipped into [lo, hi], kept where the mask bit `b` is set and
    replaced by the fill value where it is not. -/
def maskedScore (b : BitVec 1) (s : EReal) : EReal :=
  Scalar.select b (min cHi (max cLo (Ideal.div s cEight))) cFill

/-- A row's maximum: the fold of max over its 2048 entries, from the -infinity word. -/
def rowMax (s : Fin 2048 → EReal) : EReal := (Finset.univ : Finset (Fin 2048)).fold max cBot s

/-- A row entry's exponential after the row's maximum is subtracted. -/
def rowExp (s : Fin 2048 → EReal) (j : Fin 2048) : EReal := Ideal.exp (s j - rowMax s)

/-- A row's softmax at position `j`: the shifted exponential over the sum of the row's shifted exponentials. -/
def rowProb (s : Fin 2048 → EReal) (j : Fin 2048) : EReal := Ideal.div (rowExp s j) (∑ k : Fin 2048, rowExp s k)

/-- Folding max from a value never goes below that value, so taking max with it again changes nothing. -/
theorem max_bot_rowMax (s : Fin 2048 → EReal) : max cBot (rowMax s) = rowMax s :=
  max_eq_right ((Finset.le_fold_max cBot).mpr (Or.inl le_rfl))

/-- The score row of query row `i` of head `h` of batch `b`: entry `j` is the masked score of q's row `i` against k's row `j`. -/
def scoreRow (q k : (⟨4, ![2, 16, 2048, 64]⟩ : Shape).Idx → EReal) (mk : (⟨4, ![2, 1, 2048, 2048]⟩ : Shape).Idx → BitVec 1)
    (b : Fin 2) (h : Fin 16) (i : Fin 2048) : Fin 2048 → EReal :=
  fun j => maskedScore (mk (ix4 b (0 : Fin 1) i j)) (∑ d : Fin 64, q (ix4 b h i d) * k (ix4 b h j d))

/-- The attention probability at (b, h, i, j). -/
def probAt (q k : (⟨4, ![2, 16, 2048, 64]⟩ : Shape).Idx → EReal) (mk : (⟨4, ![2, 1, 2048, 2048]⟩ : Shape).Idx → BitVec 1)
    (b : Fin 2) (h : Fin 16) (i j : Fin 2048) : EReal :=
  rowProb (scoreRow q k mk b h i) j

/-- The attention output at (b, h, i, d): the probabilities of row `i` against the value rows. -/
def outAt (q k v : (⟨4, ![2, 16, 2048, 64]⟩ : Shape).Idx → EReal) (mk : (⟨4, ![2, 1, 2048, 2048]⟩ : Shape).Idx → BitVec 1)
    (b : Fin 2) (h : Fin 16) (i : Fin 2048) (d : Fin 64) : EReal :=
  ∑ j : Fin 2048, probAt q k mk b h i j * v (ix4 b h j d)

/-- The probabilities as one array of shape [2, 16, 2048, 2048]. -/
def probArr (q k : (⟨4, ![2, 16, 2048, 64]⟩ : Shape).Idx → EReal) (mk : (⟨4, ![2, 1, 2048, 2048]⟩ : Shape).Idx → BitVec 1) :
    (⟨4, ![2, 16, 2048, 2048]⟩ : Shape).Idx → EReal :=
  fun x => probAt q k mk (x 0) (x 1) (x 2) (x 3)

/-- The outputs as one array of shape [2, 16, 2048, 64]. -/
def outArr (q k v : (⟨4, ![2, 16, 2048, 64]⟩ : Shape).Idx → EReal) (mk : (⟨4, ![2, 1, 2048, 2048]⟩ : Shape).Idx → BitVec 1) :
    (⟨4, ![2, 16, 2048, 64]⟩ : Shape).Idx → EReal :=
  fun x => outAt q k v mk (x 0) (x 1) (x 2) (x 3)

theorem probArr_ix4 (q k : (⟨4, ![2, 16, 2048, 64]⟩ : Shape).Idx → EReal) (mk : (⟨4, ![2, 1, 2048, 2048]⟩ : Shape).Idx → BitVec 1)
    (b : Fin 2) (h : Fin 16) (i j : Fin 2048) : probArr q k mk (ix4 b h i j) = probAt q k mk b h i j := rfl

theorem outArr_ix4 (q k v : (⟨4, ![2, 16, 2048, 64]⟩ : Shape).Idx → EReal) (mk : (⟨4, ![2, 1, 2048, 2048]⟩ : Shape).Idx → BitVec 1)
    (b : Fin 2) (h : Fin 16) (i : Fin 2048) (d : Fin 64) : outArr q k v mk (ix4 b h i d) = outAt q k v mk b h i d := rfl

end Cert.Attn

end
-- ==== Proof.RefValue.lean ====
/-
  The reference program's two results are the specification's two arrays.

  The reference computes, stage by stage: the dot products of query rows against key rows over the 64 features, divided
  by the word 8; clipped between the two bound words; kept where the broadcast mask bit is set and replaced by the fill
  word where it is not; then, along the last axis, the fold of max from the -infinity word, once more max with the
  -infinity word, subtracted, exponentiated, summed from the zero word, and divided; and last the sum over key rows of the
  probabilities against the value rows. Each stage is read at an index with every coordinate named, and the chain of
  stages at (b, h, r, j) is the specification's expression at (b, h, r, j).
-/
import proofs.«128702_j12051678232671_2_alg».proof.Proof.Spec
import proofs.«128702_j12051678232671_2_alg».proof.Proof.Gen.ReferenceIdeal.Read
import Idealize.ShloMosaic.Lib.ValueIdx
import Idealize.ShloMosaic.PureOps.Ideal.Laws
import Idealize.ShloMosaic.Lib.Pipeline.Value

noncomputable section

open scoped BigOperators

namespace Cert.Attn.Ref

open Idealize.ShloMosaic Idealize.ShloMosaic.ValueIdx Cert.ReferenceIdeal
open Cert.ReferenceIdeal.Read

/-! ## The index maps at named coordinates -/

/-- The first dot product reads the query at (b, h, r, k) for the score at (b, h, r, j). -/
theorem lidx_v0_ix4 (b : Fin 2) (h : Fin 16) (r j : Fin 2048) (k : Fin 64) :
    lidx_main_v0 (ix4 b h r j) k = ix4 b h r k :=
  funext fun a => match a with | ⟨0, _⟩ => rfl | ⟨1, _⟩ => rfl | ⟨2, _⟩ => rfl | ⟨3, _⟩ => rfl

/-- The first dot product reads the key at (b, h, j, k) for the score at (b, h, r, j). -/
theorem ridx_v0_ix4 (b : Fin 2) (h : Fin 16) (r j : Fin 2048) (k : Fin 64) :
    ridx_main_v0 (ix4 b h r j) k = ix4 b h j k :=
  funext fun a => match a with | ⟨0, _⟩ => rfl | ⟨1, _⟩ => rfl | ⟨2, _⟩ => rfl | ⟨3, _⟩ => rfl

/-- The mask, broadcast over the 16 heads, is read at (b, 0, r, j). -/
theorem idx_mask_ix4 (b : Fin 2) (h : Fin 16) (r j : Fin 2048) :
    idx_main_call1_v0 (ix4 b h r j) = ix4 b (0 : Fin 1) r j :=
  funext fun a => match a with | ⟨0, _⟩ => rfl | ⟨1, _⟩ => rfl | ⟨2, _⟩ => rfl | ⟨3, _⟩ => rfl

/-- The row maximum, broadcast back along the last axis in two steps, is read at (b, h, r). -/
theorem idx_v8_v9_ix4 (b : Fin 2) (h : Fin 16) (r j : Fin 2048) :
    idx_main_v8 (idx_main_v9 (ix4 b h r j)) = ix3 b h r :=
  funext fun a => match a with | ⟨0, _⟩ => rfl | ⟨1, _⟩ => rfl | ⟨2, _⟩ => rfl

/-- The row sum, broadcast back along the last axis in two steps, is read at (b, h, r). -/
theorem idx_v13_v14_ix4 (b : Fin 2) (h : Fin 16) (r j : Fin 2048) :
    idx_main_v13 (idx_main_v14 (ix4 b h r j)) = ix3 b h r :=
  funext fun a => match a with | ⟨0, _⟩ => rfl | ⟨1, _⟩ => rfl | ⟨2, _⟩ => rfl

/-- The row sum at (b, h, r) runs over the entries (b, h, r, k). -/
theorem idx_v12_ix3 (b : Fin 2) (h : Fin 16) (r k : Fin 2048) :
    idx_main_v12 (ix3 b h r) k = ix4 b h r k :=
  funext fun a => match a with | ⟨0, _⟩ => rfl | ⟨1, _⟩ => rfl | ⟨2, _⟩ => rfl | ⟨3, _⟩ => rfl

/-- The second dot product reads the probability at (b, h, r, k) for the output at (b, h, r, d). -/
theorem lidx_v16_ix4 (b : Fin 2) (h : Fin 16) (r : Fin 2048) (d : Fin 64) (k : Fin 2048) :
    lidx_main_v16 (ix4 b h r d) k = ix4 b h r k :=
  funext fun a => match a with | ⟨0, _⟩ => rfl | ⟨1, _⟩ => rfl | ⟨2, _⟩ => rfl | ⟨3, _⟩ => rfl

/-- The second dot product reads the value at (b, h, k, d) for the output at (b, h, r, d). -/
theorem ridx_v16_ix4 (b : Fin 2) (h : Fin 16) (r : Fin 2048) (d : Fin 64) (k : Fin 2048) :
    ridx_main_v16 (ix4 b h r d) k = ix4 b h k d :=
  funext fun a => match a with | ⟨0, _⟩ => rfl | ⟨1, _⟩ => rfl | ⟨2, _⟩ => rfl | ⟨3, _⟩ => rfl

/-- Dropping the last axis of [2, 16, 2048, 2048] leaves [2, 16, 2048]. -/
theorem reduces_last : S2x16x2048x2048.Reduces [3] S2x16x2048 := by decide

/-- The index over (b, h, r) with k inserted on the dropped last axis is (b, h, r, k). -/
theorem lift_ix3 (b : Fin 2) (h : Fin 16) (r : Fin 2048) (k : Fin 2048) :
    reduces_last.lift (ix3 b h r) k = ix4 b h r k :=
  funext fun a => Fin.ext (match a with | ⟨0, _⟩ => rfl | ⟨1, _⟩ => rfl | ⟨2, _⟩ => rfl | ⟨3, _⟩ => rfl)

/-! ## The stages at named coordinates -/

/-- The masked, clipped, scaled score at (b, h, r, j) is entry j of the specification's score row of (b, h, r). -/
theorem score_ix4 (x0 x1 : (⟨S2x16x2048x64, .f32⟩ : BufTy).Contents (Elt Ideal)) (x3 : (⟨S2x1x2048x2048, .i1⟩ : BufTy).Contents (Elt Ideal))
    (b : Fin 2) (h : Fin 16) (r j : Fin 2048) :
    val_main_v4 (F := Ideal) x0 x1 x3 (ix4 b h r j) = Cert.Attn.scoreRow x0 x1 x3 b h r j := by
  rw [val_main_v4_apply, val_main_call1_v0_apply, val_main_v3_apply, val_main_call0_v4_apply, val_main_call0_v3_apply,
    val_main_cst_1_apply, val_main_call0_v2_apply, val_main_call0_v1_apply, val_main_call0_v0_apply, val_main_cst_0_apply,
    val_main_v2_apply, val_main_v1_apply, val_main_cst_apply, val_main_v0_apply, val_main_call1_v1_apply, val_main_cst_2_apply,
    idx_mask_ix4]
  simp only [lidx_v0_ix4, ridx_v0_ix4]
  rfl

/-- The reduction by max over the last axis, from the -infinity word, and then max with the -infinity word again, is at
    (b, h, r) the specification's row maximum of the score row of (b, h, r). -/
theorem rowmax_ix3 (x0 x1 : (⟨S2x16x2048x64, .f32⟩ : BufTy).Contents (Elt Ideal)) (x3 : (⟨S2x1x2048x2048, .i1⟩ : BufTy).Contents (Elt Ideal))
    (b : Fin 2) (h : Fin 16) (r : Fin 2048) :
    val_main_v7 (F := Ideal) x0 x1 x3 (ix3 b h r) = Cert.Attn.rowMax (Cert.Attn.scoreRow x0 x1 x3 b h r) := by
  have e5 : val_main_v5 (F := Ideal) x0 x1 x3 (ix3 b h r) = Cert.Attn.rowMax (Cert.Attn.scoreRow x0 x1 x3 b h r) := by
    unfold val_main_v5
    refine (Host.reduce_eq_fold_single (FloatOps.maximumf (F := Ideal) (φ := .f32)) _ _ _ reduces_last _ _).trans ?_
    have hf : (val_main_v4 (F := Ideal) x0 x1 x3 ∘ reduces_last.lift (ix3 b h r)) = Cert.Attn.scoreRow x0 x1 x3 b h r :=
      funext fun k => (congrArg (val_main_v4 (F := Ideal) x0 x1 x3) (lift_ix3 b h r k)).trans (score_ix4 x0 x1 x3 b h r k)
    rw [hf]
    rfl
  rw [val_main_v7_apply, val_main_v6_apply, val_main_cst_4_apply, e5]
  exact Cert.Attn.max_bot_rowMax _

/-- The exponential of the score less its row's maximum, at (b, h, r, j). -/
theorem exp_ix4 (x0 x1 : (⟨S2x16x2048x64, .f32⟩ : BufTy).Contents (Elt Ideal)) (x3 : (⟨S2x1x2048x2048, .i1⟩ : BufTy).Contents (Elt Ideal))
    (b : Fin 2) (h : Fin 16) (r j : Fin 2048) :
    val_main_v11 (F := Ideal) x0 x1 x3 (ix4 b h r j) = Cert.Attn.rowExp (Cert.Attn.scoreRow x0 x1 x3 b h r) j := by
  rw [val_main_v11_apply, val_main_v10_apply, val_main_v9_apply, val_main_v8_apply, idx_v8_v9_ix4, rowmax_ix3, score_ix4]
  rfl

/-- The sum of a row's exponentials, from the zero word, at (b, h, r). -/
theorem sum_ix3 (x0 x1 : (⟨S2x16x2048x64, .f32⟩ : BufTy).Contents (Elt Ideal)) (x3 : (⟨S2x1x2048x2048, .i1⟩ : BufTy).Contents (Elt Ideal))
    (b : Fin 2) (h : Fin 16) (r : Fin 2048) :
    val_main_v12 (F := Ideal) x0 x1 x3 (ix3 b h r) = ∑ k : Fin 2048, Cert.Attn.rowExp (Cert.Attn.scoreRow x0 x1 x3 b h r) k := by
  rw [val_main_v12_apply, val_main_cst_5_apply]
  simp only [idx_v12_ix3, exp_ix4]
  show Ideal.ofBits .f32 0x00000000#32 + _ = _
  rw [Ideal.ofBits_zero_f32, zero_add]

/-! ## The two results -/

/-- The reference's probabilities are the specification's. -/
theorem ref_prob (x0 x1 : (⟨S2x16x2048x64, .f32⟩ : BufTy).Contents (Elt Ideal)) (x3 : (⟨S2x1x2048x2048, .i1⟩ : BufTy).Contents (Elt Ideal)) :
    Cert.ReferenceIdeal.Read.val_main_v15 (F := Ideal) x0 x1 x3 = Cert.Attn.probArr x0 x1 x3 := by
  funext i
  obtain ⟨b, h, r, j, rfl⟩ : ∃ (b : Fin 2) (h : Fin 16) (r : Fin 2048) (j : Fin 2048), i = ix4 b h r j :=
    ⟨i 0, i 1, i 2, i 3, eq_ix4 i⟩
  rw [val_main_v15_apply, val_main_v14_apply, val_main_v13_apply, idx_v13_v14_ix4, sum_ix3, exp_ix4, Cert.Attn.probArr_ix4]
  rfl

/-- The reference's outputs are the specification's. -/
theorem ref_out (x0 x1 x2 : (⟨S2x16x2048x64, .f32⟩ : BufTy).Contents (Elt Ideal)) (x3 : (⟨S2x1x2048x2048, .i1⟩ : BufTy).Contents (Elt Ideal)) :
    Cert.ReferenceIdeal.Read.val_main_v16 (F := Ideal) x0 x1 x2 x3 = Cert.Attn.outArr x0 x1 x2 x3 := by
  funext i
  obtain ⟨b, h, r, d, rfl⟩ : ∃ (b : Fin 2) (h : Fin 16) (r : Fin 2048) (d : Fin 64), i = ix4 b h r d :=
    ⟨i 0, i 1, i 2, i 3, eq_ix4 i⟩
  rw [val_main_v16_apply, ref_prob, Cert.Attn.outArr_ix4]
  unfold Cert.Attn.outAt
  refine Finset.sum_congr rfl fun k _ => ?_
  rw [lidx_v16_ix4, ridx_v16_ix4, Cert.Attn.probArr_ix4]

end Cert.Attn.Ref

end
-- ==== Proof.Idx.lean ====
/-
  Flattening the (batch, head) pair. The kernel works on 32 slices numbered g = 16·b + h for batch b < 2 and head
  h < 16; the batch of slice g is g / 16 and its head g % 16.
-/
import Mathlib.Tactic

namespace Cert.Attn

/-- The batch of slice `g`. -/
def sliceBatch (g : Fin 32) : Fin 2 := ⟨g.val / 16, by have := g.isLt; omega⟩
/-- The head of slice `g`. -/
def sliceHead (g : Fin 32) : Fin 16 := ⟨g.val % 16, by have := g.isLt; omega⟩
/-- The slice of batch `b` and head `h`. -/
def sliceOf (b : Fin 2) (h : Fin 16) : Fin 32 := ⟨b.val * 16 + h.val, by have := b.isLt; have := h.isLt; omega⟩

theorem sliceBatch_sliceOf (b : Fin 2) (h : Fin 16) : sliceBatch (sliceOf b h) = b :=
  Fin.ext (by have := b.isLt; have := h.isLt; show (b.val * 16 + h.val) / 16 = b.val; omega)
theorem sliceHead_sliceOf (b : Fin 2) (h : Fin 16) : sliceHead (sliceOf b h) = h :=
  Fin.ext (by have := b.isLt; have := h.isLt; show (b.val * 16 + h.val) % 16 = h.val; omega)
theorem sliceOf_batch_head (g : Fin 32) : sliceOf (sliceBatch g) (sliceHead g) = g :=
  Fin.ext (by have := g.isLt; show g.val / 16 * 16 + g.val % 16 = g.val; omega)

end Cert.Attn
-- ==== Proof.Pieces.lean ====
/-
  What one grid point of the attention kernel leaves in its two output staging buffers, as values.

  The body loads the query tile, the key slice, the value slice and 512 rows of the batch's mask (the rows of the
  tile: an offset of 512 times the tile's number into the 2048 rows), and stores two blocks, each covering its
  staging buffer whole: the probability block and the attention output block. Read back, each buffer holds the
  stored block as a function of the four loaded blocks.
-/
import proofs.«128702_j12051678232671_2_alg».proof.Proof.Gen.KernelIdeal.Frame
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem
open Idealize.ShloMosaic.Pipeline (Dat)

namespace Cert.Attn.Pieces

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl

/-- The rows of the batch's mask that a query tile reads: 512 rows starting at the tile's first row. -/
def maskSlice (i : grid0.Coords) (x3 : Vec F S1x2048x2048 .i32) : Vec F S1x512x2048 .i32 :=
  View.ld x3 (Rect.unit (s := S1x2048x2048) (k0_off1 i) S1x512x2048.size (k0_off1_inb i))

/-- Row `r` of the tile's mask slice is row `512·qi + r` of the batch's mask, `qi` the tile's number. -/
theorem maskSlice_apply (i : grid0.Coords) (x3 : Vec F S1x2048x2048 .i32) (r : Fin 512) (j : Fin 2048) (s : Fin 2048)
    (hs : s.val = 512 * (i 1).val + r.val) :
    maskSlice i x3 (ix3 (0 : Fin 1) r j) = x3 (ix3 (0 : Fin 1) s j) := by
  unfold maskSlice
  show x3 (LoadRect.idx _ _) = x3 _
  congr 1
  funext a
  apply Fin.ext
  rw [LoadRect.idx_apply]
  match a with
  | ⟨0, _⟩ => show k0_off1 i 0 + 1 * 0 = 0; rw [k0_off1_eq]; rfl
  | ⟨1, _⟩ => show k0_off1 i 1 + 1 * r.val = s.val; rw [k0_off1_eq, hs]; show 512 * (i 1).val + 1 * r.val = _; omega
  | ⟨2, _⟩ => show k0_off1 i 2 + 1 * j.val = j.val; rw [k0_off1_eq]; show 0 + 1 * j.val = _; omega

/-- What the body leaves in the probability output's staging buffer: the probability block of the tile (a [512, 2048]
    block cast to [1, 512, 2048]) computed from the query tile, the key slice and the tile's rows of the mask. -/
theorem out_5 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x2048x2048 .i32) (harg5 : arg5.IsWhole) (arg6 : Memref sig .tc .vmem S1x512x64 .f32) (harg6 : arg6.IsWhole) (arg7 : Memref sig .tc .vmem S1x512x2048 .f32) (harg7 : arg7.IsWhole)
    (x0 : Vec F S1x512x64 .f32) (x1 : Vec F S1x2048x64 .f32) (x2 : Vec F S1x2048x64 .f32) (x3 : Vec F S1x2048x2048 .i32) :
    out0_A_5 c i arg2 harg2 arg3 harg3 arg4 harg4 arg5 harg5 arg6 harg6 arg7 harg7 x0 x1 x2 x3 = k0_pay2 (k0_pay3 x0 x1 (maskSlice i x3)) := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  sl_unfold_run_names
  rw [View.canon_unit_zero hz3]
  simp only [View.readAt_eq_ld, harg2.read_unread, harg3.read_unread, harg5.read_unread, View.ld_unit_zero (S := S1x512x64) hz3, View.ld_unit_zero (S := S1x2048x64) hz3]
  rfl

/-- What the body leaves in the attention output's staging buffer: the tile's probabilities times the value slice. -/
theorem out_4 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x2048x2048 .i32) (harg5 : arg5.IsWhole) (arg6 : Memref sig .tc .vmem S1x512x64 .f32) (harg6 : arg6.IsWhole) (arg7 : Memref sig .tc .vmem S1x512x2048 .f32) (harg7 : arg7.IsWhole)
    (x0 : Vec F S1x512x64 .f32) (x1 : Vec F S1x2048x64 .f32) (x2 : Vec F S1x2048x64 .f32) (x3 : Vec F S1x2048x2048 .i32) :
    out0_A_4 c i arg2 harg2 arg3 harg3 arg4 harg4 arg5 harg5 arg6 harg6 arg7 harg7 x0 x1 x2 x3 = k0_pay1 (k0_pay4 x0 x1 x2 (maskSlice i x3)) := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_run_names
  rw [View.canon_unit_zero hz3]
  simp only [View.readAt_eq_ld, harg2.read_unread, harg3.read_unread, harg4.read_unread, harg5.read_unread, View.ld_unit_zero (S := S1x512x64) hz3, View.ld_unit_zero (S := S1x2048x64) hz3]
  rfl

end Cert.Attn.Pieces
end
-- ==== Proof.Blocks.lean ====
/-
  Where the kernel's blocks sit in its arrays.

  The grid has 128 points, t = 4·g + qi for slice g < 32 and query tile qi < 4. At point t the query window's
  block is rows 512·qi … 512·qi + 511 of slice g; the key and value windows' blocks are slice g whole; the mask
  window's block is batch g / 16 = t / 64 whole; both output windows' blocks are rows 512·qi … of slice g. Every
  index (g, s, ·) of an output array is in the block of the point 4·g + s / 512.
-/
import proofs.«128702_j12051678232671_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.Attn.Blocks

open Cert.KernelIdeal Cert.KernelIdeal.Gen Idealize.ShloMosaic.ValueIdx

variable {F : FTy → Type} [FloatOps F]
variable (m : (ℓ : Loc nD τ sig) → Buf (Elt F) ℓ)

/-- The printed index maps in closed form, decided over the grid's 128 points. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 64 ∧ win0_3.index t (1 : Fin 3) = 0 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0)
    ∧ (grid0.coords t 1).val = t.val % 4 :=
  (by decide +kernel : ∀ t : Fin grid0.N, _)

/-- The query window's block at point `t`: row `r` of the tile is row `s = 512·(t % 4) + r` of slice `g = t / 4`. -/
theorem iblk0_apply (c : Dev nD) (t : Fin cfg0.N) (r : Fin 512) (d : Fin 64) (g : Fin 32) (s : Fin 2048)
    (hg : g.val = t.val / 4) (hs : s.val = 512 * (t.val % 4) + r.val) :
    (iblk m c 0 t : Vec F S1x512x64 .f32) (ix3 (0 : Fin 1) r d) = (V m c main_v0 : S32x2048x64.Idx → Elt F .f32) (ix3 g s d) := by
  obtain ⟨⟨e0, e1, e2⟩, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = g.val; omega
  | ⟨1, _⟩ => show win0_0.index t (1 : Fin 3) * 512 + 1 * r.val = s.val; omega
  | ⟨2, _⟩ => show win0_0.index t (2 : Fin 3) * 64 + 1 * d.val = d.val; omega

/-- The key window's block at point `t` is slice `g = t / 4` whole. -/
theorem iblk1_apply (c : Dev nD) (t : Fin cfg0.N) (j : Fin 2048) (d : Fin 64) (g : Fin 32) (hg : g.val = t.val / 4) :
    (iblk m c 1 t : Vec F S1x2048x64 .f32) (ix3 (0 : Fin 1) j d) = (V m c main_v1 : S32x2048x64.Idx → Elt F .f32) (ix3 g j d) := by
  obtain ⟨-, ⟨e0, e1, e2⟩, -⟩ := idx_facts t
  unfold iblk
  rw [View.read_apply]
  show V m c main_v1 _ = V m c main_v1 _
  congr 1
  funext a
  apply Fin.ext
  match a with
  | ⟨0, _⟩ => show win0_1.index t (0 : Fin 3) * 1 + 1 * 0 = g.val; omega
  | ⟨1, _⟩ => show win0_1.index t (1 : Fin 3) * 2048 + 1 * j.val = j.val; omega
  | ⟨2, _⟩ => show win0_1.index t (2 : Fin 3) * 64 + 1 * d.val = d.val; omega

/-- The value window's block at point `t` is slice `g = t / 4` whole. -/
theorem iblk2_apply (c : Dev nD) (t : Fin cfg0.N) (j : Fin 2048) (d : Fin 64) (g : Fin 32) (hg : g.val = t.val / 4) :
    (iblk m c 2 t : Vec F S1x2048x64 .f32) (ix3 (0 : Fin 1) j d) = (V m c main_v2 : S32x2048x64.Idx → Elt F .f32) (ix3 g j d) := by
  obtain ⟨-, -, ⟨e0, e1, e2⟩, -⟩ := idx_facts t
  unfold iblk
  rw [View.read_apply]
  show V m c main_v2 _ = V m c main_v2 _
  congr 1
  funext a
  apply Fin.ext
  match a with
  | ⟨0, _⟩ => show win0_2.index t (0 : Fin 3) * 1 + 1 * 0 = g.val; omega
  | ⟨1, _⟩ => show win0_2.index t (1 : Fin 3) * 2048 + 1 * j.val = j.val; omega
  | ⟨2, _⟩ => show win0_2.index t (2 : Fin 3) * 64 + 1 * d.val = d.val; omega

/-- The mask window's block at point `t` is batch `b = t / 64` whole. -/
theorem iblk3_apply (c : Dev nD) (t : Fin cfg0.N) (s j : Fin 2048) (b : Fin 2) (hb : b.val = t.val / 64) :
    (iblk m c 3 t : Vec F S1x2048x2048 .i32) (ix3 (0 : Fin 1) s j) = (V m c main_v4 : S2x2048x2048.Idx → BitVec 32) (ix3 b s j) := by
  obtain ⟨-, -, -, ⟨e0, e1, e2⟩, -⟩ := idx_facts t
  unfold iblk
  rw [View.read_apply]
  show V m c main_v4 _ = V m c main_v4 _
  congr 1
  funext a
  apply Fin.ext
  match a with
  | ⟨0, _⟩ => show win0_3.index t (0 : Fin 3) * 1 + 1 * 0 = b.val; omega
  | ⟨1, _⟩ => show win0_3.index t (1 : Fin 3) * 2048 + 1 * s.val = s.val; omega
  | ⟨2, _⟩ => show win0_3.index t (2 : Fin 3) * 2048 + 1 * j.val = j.val; omega

/-- An array read through the attention output window's block at point `t`: row `r` of the block is row
    `s = 512·(t % 4) + r` of slice `g = t / 4`. -/
theorem oblk4_read (G : S32x2048x64.Idx → Elt F .f32) (t : Fin cfg0.N) (r : Fin 512) (d : Fin 64) (g : Fin 32) (s : Fin 2048)
    (hg : g.val = t.val / 4) (hs : s.val = 512 * (t.val % 4) + r.val) :
    (((cfg0.win 4).blk t).view.read (Elt F) G : Vec F S1x512x64 .f32) (ix3 (0 : Fin 1) r d) = G (ix3 g s d) := by
  obtain ⟨-, -, -, -, ⟨e0, e1, e2⟩, -⟩ := idx_facts t
  rw [View.read_apply]
  show G _ = G _
  congr 1
  funext a
  apply Fin.ext
  match a with
  | ⟨0, _⟩ => show win0_4.index t (0 : Fin 3) * 1 + 1 * 0 = g.val; omega
  | ⟨1, _⟩ => show win0_4.index t (1 : Fin 3) * 512 + 1 * r.val = s.val; omega
  | ⟨2, _⟩ => show win0_4.index t (2 : Fin 3) * 64 + 1 * d.val = d.val; omega

/-- The same for the probability output window. -/
theorem oblk5_read (G : S32x2048x2048.Idx → Elt F .f32) (t : Fin cfg0.N) (r : Fin 512) (j : Fin 2048) (g : Fin 32) (s : Fin 2048)
    (hg : g.val = t.val / 4) (hs : s.val = 512 * (t.val % 4) + r.val) :
    (((cfg0.win 5).blk t).view.read (Elt F) G : Vec F S1x512x2048 .f32) (ix3 (0 : Fin 1) r j) = G (ix3 g s j) := by
  obtain ⟨-, -, -, -, -, ⟨e0, e1, e2⟩, -⟩ := idx_facts t
  rw [View.read_apply]
  show G _ = G _
  congr 1
  funext a
  apply Fin.ext
  match a with
  | ⟨0, _⟩ => show win0_5.index t (0 : Fin 3) * 1 + 1 * 0 = g.val; omega
  | ⟨1, _⟩ => show win0_5.index t (1 : Fin 3) * 512 + 1 * r.val = s.val; omega
  | ⟨2, _⟩ => show win0_5.index t (2 : Fin 3) * 2048 + 1 * j.val = j.val; omega

/-- An index of the attention output array is in point `t`'s block iff each coordinate is in the block's range. -/
theorem mem_blk4 (t : Fin cfg0.N) (i : S32x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v5_0).slice (win0_4.rect t)).set ↔ _
  rw [View.set_slice_whole, Rect.mem_set_unit]
  exact Iff.rfl

/-- The same for the probability output array. -/
theorem mem_blk5 (t : Fin cfg0.N) (i : S32x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v5_1).slice (win0_5.rect t)).set ↔ _
  rw [View.set_slice_whole, Rect.mem_set_unit]
  exact Iff.rfl

/-- Every index (g, s, d) of the attention output array is in the block of the point 4·g + s / 512. -/
theorem cover4 (i : S32x2048x64.Idx) : ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 64 := (i 2).isLt
  have hN : cfg0.N = 128 := N_0
  have ht : 4 * (i 0).val + (i 1).val / 512 < cfg0.N := by rw [hN]; omega
  refine ⟨⟨4 * (i 0).val + (i 1).val / 512, ht⟩, flush0_4 _, ?_⟩
  rw [mem_blk4]
  obtain ⟨-, -, -, -, ⟨e0, e1, e2⟩, -⟩ := idx_facts ⟨4 * (i 0).val + (i 1).val / 512, ht⟩
  have e0' : win0_4.index ⟨4 * (i 0).val + (i 1).val / 512, ht⟩ (0 : Fin 3) = (4 * (i 0).val + (i 1).val / 512) / 4 := e0
  have e1' : win0_4.index ⟨4 * (i 0).val + (i 1).val / 512, ht⟩ (1 : Fin 3) = (4 * (i 0).val + (i 1).val / 512) % 4 := e1
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 512 ≤ (i 1).val ∧ (i 1).val < win0_4.index _ (1 : Fin 3) * 512 + 512; omega
  | ⟨2, _⟩ => show win0_4.index _ (2 : Fin 3) * 64 ≤ (i 2).val ∧ (i 2).val < win0_4.index _ (2 : Fin 3) * 64 + 64; omega

/-- Every index (g, s, j) of the probability output array is in the block of the point 4·g + s / 512. -/
theorem cover5 (i : S32x2048x2048.Idx) : ∃ t : Fin cfg0.N, (cfg0.win 5).flush t = true ∧ i ∈ ((cfg0.win 5).blk t).view.set := by
  have h0 : (i 0).val < 32 := (i 0).isLt
  have h1 : (i 1).val < 2048 := (i 1).isLt
  have h2 : (i 2).val < 2048 := (i 2).isLt
  have hN : cfg0.N = 128 := N_0
  have ht : 4 * (i 0).val + (i 1).val / 512 < cfg0.N := by rw [hN]; omega
  refine ⟨⟨4 * (i 0).val + (i 1).val / 512, ht⟩, flush0_5 _, ?_⟩
  rw [mem_blk5]
  obtain ⟨-, -, -, -, -, ⟨e0, e1, e2⟩, -⟩ := idx_facts ⟨4 * (i 0).val + (i 1).val / 512, ht⟩
  have e0' : win0_5.index ⟨4 * (i 0).val + (i 1).val / 512, ht⟩ (0 : Fin 3) = (4 * (i 0).val + (i 1).val / 512) / 4 := e0
  have e1' : win0_5.index ⟨4 * (i 0).val + (i 1).val / 512, ht⟩ (1 : Fin 3) = (4 * (i 0).val + (i 1).val / 512) % 4 := e1
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 512 ≤ (i 1).val ∧ (i 1).val < win0_5.index _ (1 : Fin 3) * 512 + 512; omega
  | ⟨2, _⟩ => show win0_5.index _ (2 : Fin 3) * 2048 ≤ (i 2).val ∧ (i 2).val < win0_5.index _ (2 : Fin 3) * 2048 + 2048; omega

end Cert.Attn.Blocks

end
-- ==== Proof.Payload.lean ====
/-
  The kernel body's arithmetic, read at an index.

  A query tile of 512 rows is scored against 2048 key rows: the dot product over the 64 features, times the word
  0.125, clipped into [lo, hi], and replaced by the fill word where the mask word is zero. Each row of scores is
  turned into probabilities by subtracting the row's maximum (folded from the -infinity word), exponentiating and
  dividing by the row's sum; the output tile is the probabilities against the 2048 value rows. Here each of those
  blocks is read at one entry: the probability block at (r, j) is the specification's softmax of row r's masked
  scores at j, and the output block at (r, d) is the sum over j of probability (r, j) times value (j, d). The two
  stored blocks are the same entries under a leading unit axis.

  One small statement per operation that is not entry-by-entry (the two products, the two reductions along the
  lanes, the column form of a per-row vector), then the chain.
-/
import proofs.«128702_j12051678232671_2_alg».proof.Proof.Spec
import proofs.«128702_j12051678232671_2_alg».proof.Proof.Gen.KernelIdeal.Skeleton
import Idealize.ShloMosaic.Lib.ValueIdx
import Idealize.ShloMosaic.PureOps.Ideal.Laws
import Idealize.ShloMosaic.Lib.Pipeline.Value
import Idealize.ShloMosaic.Lib.ValueLayout

noncomputable section

open scoped BigOperators

namespace Cert.Attn.Pay

open Idealize.ShloMosaic Idealize.ShloMosaic.ValueIdx Cert.KernelIdeal Cert.KernelIdeal.Gen

/-! ## The column form of a per-row vector -/

/-- A length-512 vector laid out as a column and repeated along the 2048 lanes. -/
def colBcast (v : FVec Ideal S512 .f32) : FVec Ideal S512x2048 .f32 :=
  broadcastTo S512x2048 (shapeCast S512x1 v shapeCasts_S512_S512x1) broadcasts_S512x1_S512x2048

/-- Entry (r, j) of the column form is entry r of the vector. -/
theorem colBcast_apply (v : FVec Ideal S512 .f32) (r : Fin 512) (j : Fin 2048) :
    colBcast v (ix2 r j) = v (ix1 r) := by
  unfold colBcast
  refine (broadcastTo_apply _ broadcasts_S512x1_S512x2048 (ix2 r j) (ix2 r (0 : Fin 1)) fun ax => ?_).trans ?_
  · match ax with
    | ⟨0, _⟩ =>
      show r.val = if (512 : Nat) = 1 then 0 else r.val
      rw [if_neg (by decide)]
    | ⟨1, _⟩ =>
      show (0 : Nat) = if (1 : Nat) = 1 then 0 else j.val
      rw [if_pos rfl]
  · exact shapeCast_apply v shapeCasts_S512_S512x1 _ _ (by
      rw [Shape.rowMajor_val_two, Shape.rowMajor_val_one]
      show r.val = r.val * 1 + 0
      omega)

/-! ## The two reductions along the lanes -/

/-- Row r's index with lane k put back is (r, k). -/
theorem lift_ix (r : Fin 512) (k : Fin 2048) :
    (reduces_S512x2048_S512).lift (ix1 r) k = ix2 r k := by
  funext a
  match a with
  | ⟨0, _⟩ => rfl
  | ⟨1, _⟩ => rfl

/-- The row maxima of a block, folded from the -infinity word. -/
def rowMaxVec (s : FVec Ideal S512x2048 .f32) : FVec Ideal S512 .f32 :=
  multiReduction .maximumf [1] S512 s 0xFF800000#32 reduces_S512x2048_S512 (.inl rfl) rfl

theorem rowMaxVec_apply (s : FVec Ideal S512x2048 .f32) (r : Fin 512) :
    rowMaxVec s (ix1 r) = Cert.Attn.rowMax (fun j => s (ix2 r j)) := by
  unfold rowMaxVec
  refine (Ideal.multiReduction_maximumf_single s 0xFF800000#32 reduces_S512x2048_S512 (.inl rfl) rfl (ix1 r)).trans ?_
  unfold Cert.Attn.rowMax
  refine congrArg (fun f => (Finset.univ : Finset (Fin 2048)).fold max Cert.Attn.cBot f) ?_
  funext k
  exact congrArg s (lift_ix r k)

/-- The row sums of a block. -/
def rowSumVec (e : FVec Ideal S512x2048 .f32) : FVec Ideal S512 .f32 :=
  multiReduction .add [1] S512 e 0x00000000#32 reduces_S512x2048_S512 (.inl rfl) rfl

theorem rowSumVec_apply (e : FVec Ideal S512x2048 .f32) (r : Fin 512) :
    rowSumVec e (ix1 r) = ∑ k : Fin 2048, e (ix2 r k) := by
  unfold rowSumVec
  refine (Ideal.multiReduction_add_single e 0x00000000#32 reduces_S512x2048_S512 (.inl rfl) rfl (ix1 r)).trans ?_
  exact Finset.sum_congr rfl fun k _ => congrArg e (lift_ix r k)

/-! ## The softmax of a block, row by row -/

/-- The shifted exponentials of a block: each entry minus its row's maximum, exponentiated. -/
def expBlock (s : FVec Ideal S512x2048 .f32) : FVec Ideal S512x2048 .f32 :=
  exp (subf s (colBcast (rowMaxVec s)))

theorem expBlock_apply (s : FVec Ideal S512x2048 .f32) (r : Fin 512) (j : Fin 2048) :
    expBlock s (ix2 r j) = Cert.Attn.rowExp (fun j' => s (ix2 r j')) j := by
  show Ideal.exp (s (ix2 r j) - colBcast (rowMaxVec s) (ix2 r j)) = _
  rw [colBcast_apply, rowMaxVec_apply]
  rfl

/-- The softmax of a block along its lanes. -/
def softmaxBlock (s : FVec Ideal S512x2048 .f32) : FVec Ideal S512x2048 .f32 :=
  divf (expBlock s) (colBcast (rowSumVec (expBlock s)))

theorem softmaxBlock_apply (s : FVec Ideal S512x2048 .f32) (r : Fin 512) (j : Fin 2048) :
    softmaxBlock s (ix2 r j) = Cert.Attn.rowProb (fun j' => s (ix2 r j')) j := by
  show Ideal.div (expBlock s (ix2 r j)) (colBcast (rowSumVec (expBlock s)) (ix2 r j)) = _
  rw [colBcast_apply, rowSumVec_apply, expBlock_apply]
  unfold Cert.Attn.rowProb
  refine congrArg (Ideal.div _) (Finset.sum_congr rfl fun k _ => expBlock_apply s r k)

/-! ## The two products -/

theorem nt_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

theorem nt_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- The product of a [512, 64] block with a [2048, 64] block over their feature axes, into the zero block:
    entry (r, j) is the dot product of row r of the first with row j of the second. -/
theorem matmulNT_apply (A : FVec Ideal S512x64 .bf16) (B : FVec Ideal S2048x64 .bf16) (r : Fin 512) (j : Fin 2048) :
    matmul dot_S512x64_S2048x64_S512x2048_1_1_0_0_n_n none A B (constant S512x2048 .f32 0x00000000#32) (ix2 r j)
      = ∑ d : Fin 64, A (ix2 r d) * B (ix2 j d) := by
  refine (Ideal.matmul_constant_zero_apply dot_S512x64_S2048x64_S512x2048_1_1_0_0_n_n none A B (ix2 r j)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r j)
      ((contrEquiv1 dot_S512x64_S2048x64_S512x2048_1_1_0_0_n_n 64 rfl rfl).symm k) = ix2 r k :=
    funext fun a => Fin.ext (by
      match a with
      | ⟨0, _⟩ => exact nt_lhs0 _ _
      | ⟨1, _⟩ => exact (dot_S512x64_S2048x64_S512x2048_1_1_0_0_n_n.lhsIdx_val_of_single rfl _ _).trans hk)
  have er : dot_S512x64_S2048x64_S512x2048_1_1_0_0_n_n.rhsIdx (ix2 r j)
      ((contrEquiv1 dot_S512x64_S2048x64_S512x2048_1_1_0_0_n_n 64 rfl rfl).symm k) = ix2 j k :=
    funext fun a => Fin.ext (by
      match a with
      | ⟨0, _⟩ => exact nt_rhs0 _ _
      | ⟨1, _⟩ => exact (dot_S512x64_S2048x64_S512x2048_1_1_0_0_n_n.rhsIdx_val_of_single rfl _ _).trans hk)
  rw [el, er]

theorem nn_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

theorem nn_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The product of a [512, 2048] block with a [2048, 64] block, into the zero block: entry (r, d) is the sum over
    the 2048 lanes j of the first at (r, j) times the second at (j, d). -/
theorem matmulNN_apply (A : FVec Ideal S512x2048 .bf16) (B : FVec Ideal S2048x64 .bf16) (r : Fin 512) (d : Fin 64) :
    matmul dot_S512x2048_S2048x64_S512x64_1_0_0_1_n_n none A B (constant S512x64 .f32 0x00000000#32) (ix2 r d)
      = ∑ j : Fin 2048, A (ix2 r j) * B (ix2 j d) := by
  refine (Ideal.matmul_constant_zero_apply dot_S512x2048_S2048x64_S512x64_1_0_0_1_n_n none A B (ix2 r d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d)
      ((contrEquiv1 dot_S512x2048_S2048x64_S512x64_1_0_0_1_n_n 2048 rfl rfl).symm k) = ix2 r k :=
    funext fun a => Fin.ext (by
      match a with
      | ⟨0, _⟩ => exact nn_lhs0 _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 r d)
      ((contrEquiv1 dot_S512x2048_S2048x64_S512x64_1_0_0_1_n_n 2048 rfl rfl).symm k) = ix2 k d :=
    funext fun a => Fin.ext (by
      match a with
      | ⟨0, _⟩ => exact (dot_S512x2048_S2048x64_S512x64_1_0_0_1_n_n.rhsIdx_val_of_single rfl _ _).trans hk
      | ⟨1, _⟩ => exact nn_rhs1 _ _)
  rw [el, er]

/-! ## The scores of a query tile -/

/-- The raw scores of a query tile: the query block against the key block over the 64 features. -/
def qkBlock (x0 : Vec Ideal S1x512x64 .f32) (x1 : Vec Ideal S1x2048x64 .f32) : FVec Ideal S512x2048 .f32 :=
  matmul dot_S512x64_S2048x64_S512x2048_1_1_0_0_n_n none
    (truncf .bf16 (shapeCast S512x64 x0 shapeCasts_S1x512x64_S512x64) bitsLt_bf16_f32 : FVec Ideal S512x64 .bf16)
    (truncf .bf16 (shapeCast S2048x64 x1 shapeCasts_S1x2048x64_S2048x64) bitsLt_bf16_f32 : FVec Ideal S2048x64 .bf16)
    (constant S512x2048 .f32 0x00000000#32)

theorem qkBlock_apply (x0 : Vec Ideal S1x512x64 .f32) (x1 : Vec Ideal S1x2048x64 .f32) (r : Fin 512) (j : Fin 2048) :
    qkBlock x0 x1 (ix2 r j) = ∑ d : Fin 64, x0 (ix3 (0 : Fin 1) r d) * x1 (ix3 (0 : Fin 1) j d) := by
  unfold qkBlock
  refine (matmulNT_apply _ _ r j).trans (Finset.sum_congr rfl fun d _ => ?_)
  have hq : (truncf .bf16 (shapeCast S512x64 x0 shapeCasts_S1x512x64_S512x64) bitsLt_bf16_f32 : FVec Ideal S512x64 .bf16) (ix2 r d)
      = x0 (ix3 (0 : Fin 1) r d) := shapeCast_1ab_ab_apply x0 shapeCasts_S1x512x64_S512x64 r d
  have hk : (truncf .bf16 (shapeCast S2048x64 x1 shapeCasts_S1x2048x64_S2048x64) bitsLt_bf16_f32 : FVec Ideal S2048x64 .bf16) (ix2 j d)
      = x1 (ix3 (0 : Fin 1) j d) := shapeCast_1ab_ab_apply x1 shapeCasts_S1x2048x64_S2048x64 j d
  rw [hq, hk]

/-- The scores of a query tile: scaled by the word 0.125, clipped into [lo, hi], and replaced by the fill word
    where the mask word is zero. -/
def scoresBlock (x0 : Vec Ideal S1x512x64 .f32) (x1 : Vec Ideal S1x2048x64 .f32) (x12 : Vec Ideal S1x512x2048 .i32) :
    FVec Ideal S512x2048 .f32 :=
  select
    (cmpi .ne (shapeCast S512x2048 x12 shapeCasts_S1x512x2048_S512x2048 : IVec S512x2048 32) (constantI S512x2048 32 0#32))
    (minimumf (broadcast S512x2048 (Scalar.ofBits (F := Ideal) .f32 0x4E6E6B28#32))
      (maximumf (broadcast S512x2048 (Scalar.ofBits (F := Ideal) .f32 0x3089705F#32))
        (mulf (qkBlock x0 x1) (broadcast S512x2048 (Scalar.ofBits (F := Ideal) .f32 0x3E000000#32)))))
    (broadcast S512x2048 (Scalar.ofBits (F := Ideal) .f32 0xCE6E6B28#32))

theorem scoresBlock_apply (x0 : Vec Ideal S1x512x64 .f32) (x1 : Vec Ideal S1x2048x64 .f32) (x12 : Vec Ideal S1x512x2048 .i32)
    (r : Fin 512) (j : Fin 2048) :
    scoresBlock x0 x1 x12 (ix2 r j)
      = Cert.Attn.maskedScore (Cert.Attn.maskBit (x12 (ix3 (0 : Fin 1) r j)))
          (∑ d : Fin 64, x0 (ix3 (0 : Fin 1) r d) * x1 (ix3 (0 : Fin 1) j d)) := by
  have hmask : (shapeCast S512x2048 x12 shapeCasts_S1x512x2048_S512x2048 : IVec S512x2048 32) (ix2 r j)
      = x12 (ix3 (0 : Fin 1) r j) := shapeCast_1ab_ab_apply x12 shapeCasts_S1x512x2048_S512x2048 r j
  show Scalar.select
      (Cert.Attn.maskBit ((shapeCast S512x2048 x12 shapeCasts_S1x512x2048_S512x2048 : IVec S512x2048 32) (ix2 r j)))
      (min Cert.Attn.cHi (max Cert.Attn.cLo (qkBlock x0 x1 (ix2 r j) * Cert.Attn.cEighth))) Cert.Attn.cFill = _
  rw [hmask, qkBlock_apply, Cert.Attn.mul_eighth_eq_div_eight]
  rfl

/-! ## The kernel's two payloads -/

/-- The probability block is the softmax of the scores block. -/
theorem pay3_eq (x0 : Vec Ideal S1x512x64 .f32) (x1 : Vec Ideal S1x2048x64 .f32) (x12 : Vec Ideal S1x512x2048 .i32) :
    k0_pay3 (F := Ideal) x0 x1 x12 = softmaxBlock (scoresBlock x0 x1 x12) := rfl

theorem pay3_apply (x0 : Vec Ideal S1x512x64 .f32) (x1 : Vec Ideal S1x2048x64 .f32) (x12 : Vec Ideal S1x512x2048 .i32) (r : Fin 512) (j : Fin 2048) :
    k0_pay3 (F := Ideal) x0 x1 x12 (ix2 r j)
      = Cert.Attn.rowProb (fun j' : Fin 2048 => Cert.Attn.maskedScore (Cert.Attn.maskBit (x12 (ix3 (0 : Fin 1) r j')))
          (∑ d : Fin 64, x0 (ix3 (0 : Fin 1) r d) * x1 (ix3 (0 : Fin 1) j' d))) j := by
  rw [pay3_eq, softmaxBlock_apply]
  refine congrArg (fun s => Cert.Attn.rowProb s j) (funext fun j' => scoresBlock_apply x0 x1 x12 r j')

theorem pay4_apply (x0 : Vec Ideal S1x512x64 .f32) (x1 x2 : Vec Ideal S1x2048x64 .f32) (x12 : Vec Ideal S1x512x2048 .i32) (r : Fin 512) (d : Fin 64) :
    k0_pay4 (F := Ideal) x0 x1 x2 x12 (ix2 r d) = ∑ j : Fin 2048, k0_pay3 (F := Ideal) x0 x1 x12 (ix2 r j) * x2 (ix3 (0 : Fin 1) j d) := by
  unfold k0_pay4
  generalize k0_pay3 (F := Ideal) x0 x1 x12 = P
  refine (matmulNN_apply _ _ r d).trans (Finset.sum_congr rfl fun j _ => ?_)
  have hv : (truncf .bf16 (shapeCast S2048x64 x2 shapeCasts_S1x2048x64_S2048x64) bitsLt_bf16_f32 : FVec Ideal S2048x64 .bf16) (ix2 j d)
      = x2 (ix3 (0 : Fin 1) j d) := shapeCast_1ab_ab_apply x2 shapeCasts_S1x2048x64_S2048x64 j d
  rw [hv]
  rfl

theorem pay1_apply (v34 : FVec Ideal S512x64 .f32) (r : Fin 512) (d : Fin 64) :
    k0_pay1 (F := Ideal) v34 (ix3 (0 : Fin 1) r d) = v34 (ix2 r d) :=
  shapeCast_ab_1ab_apply v34 shapeCasts_S512x64_S1x512x64 (0 : Fin 1) r d

theorem pay2_apply (v32 : FVec Ideal S512x2048 .f32) (r : Fin 512) (j : Fin 2048) :
    k0_pay2 (F := Ideal) v32 (ix3 (0 : Fin 1) r j) = v32 (ix2 r j) :=
  shapeCast_ab_1ab_apply v32 shapeCasts_S512x2048_S1x512x2048 (0 : Fin 1) r j

end Cert.Attn.Pay

end
-- ==== Proof.Point.lean ====
/-
  One query row of one grid point against the specification.

  If row r of the query tile is row s of slice (b, h) of q, the key block is slice (b, h) of k, the value block is
  slice (b, h) of v, and the tile's mask words, tested against zero, are the mask bits of row s of batch b, then
  row r of the tile's probability block is the softmax of the score row (b, h, s), and row r of the tile's output
  block is that row of probabilities against the value rows.
-/
import proofs.«128702_j12051678232671_2_alg».proof.Proof.Spec
import proofs.«128702_j12051678232671_2_alg».proof.Proof.Payload

noncomputable section

open scoped BigOperators

namespace Cert.Attn.Point

open Idealize.ShloMosaic Idealize.ShloMosaic.ValueIdx Cert.KernelIdeal Cert.KernelIdeal.Gen Cert.Attn

/-- Row `r` of the probability block is the softmax of score row (b, h, s). -/
theorem prob_point (x0 : Vec Ideal S1x512x64 .f32) (x1 : Vec Ideal S1x2048x64 .f32) (x12 : Vec Ideal S1x512x2048 .i32)
    (a0 a1 : (⟨4, ![2, 16, 2048, 64]⟩ : Shape).Idx → EReal) (mk : (⟨4, ![2, 1, 2048, 2048]⟩ : Shape).Idx → BitVec 1)
    (b : Fin 2) (h : Fin 16) (s : Fin 2048) (r : Fin 512)
    (h0 : ∀ d : Fin 64, x0 (ix3 (0 : Fin 1) r d) = a0 (ix4 b h s d))
    (h1 : ∀ (j' : Fin 2048) (d : Fin 64), x1 (ix3 (0 : Fin 1) j' d) = a1 (ix4 b h j' d))
    (h3 : ∀ j' : Fin 2048, maskBit (x12 (ix3 (0 : Fin 1) r j')) = mk (ix4 b (0 : Fin 1) s j')) (j : Fin 2048) :
    k0_pay3 (F := Ideal) x0 x1 x12 (ix2 r j) = probAt a0 a1 mk b h s j := by
  rw [Pay.pay3_apply]
  unfold probAt
  refine congrArg (fun f => rowProb f j) (funext fun j' => ?_)
  show maskedScore _ _ = maskedScore _ _
  rw [h3 j']
  refine congrArg _ (Finset.sum_congr rfl fun d _ => ?_)
  rw [h0 d, h1 j' d]

/-- Row `r` of the output block is the probabilities of row (b, h, s) against the value rows. -/
theorem out_point (x0 : Vec Ideal S1x512x64 .f32) (x1 x2 : Vec Ideal S1x2048x64 .f32) (x12 : Vec Ideal S1x512x2048 .i32)
    (a0 a1 a2 : (⟨4, ![2, 16, 2048, 64]⟩ : Shape).Idx → EReal) (mk : (⟨4, ![2, 1, 2048, 2048]⟩ : Shape).Idx → BitVec 1)
    (b : Fin 2) (h : Fin 16) (s : Fin 2048) (r : Fin 512)
    (h0 : ∀ d : Fin 64, x0 (ix3 (0 : Fin 1) r d) = a0 (ix4 b h s d))
    (h1 : ∀ (j' : Fin 2048) (d : Fin 64), x1 (ix3 (0 : Fin 1) j' d) = a1 (ix4 b h j' d))
    (h2 : ∀ (j' : Fin 2048) (d : Fin 64), x2 (ix3 (0 : Fin 1) j' d) = a2 (ix4 b h j' d))
    (h3 : ∀ j' : Fin 2048, maskBit (x12 (ix3 (0 : Fin 1) r j')) = mk (ix4 b (0 : Fin 1) s j')) (d : Fin 64) :
    k0_pay4 (F := Ideal) x0 x1 x2 x12 (ix2 r d) = outAt a0 a1 a2 mk b h s d := by
  rw [Pay.pay4_apply]
  unfold outAt
  refine Finset.sum_congr rfl fun j _ => ?_
  rw [prob_point x0 x1 x12 a0 a1 mk b h s r h0 h1 h3 j, h2 j d]

end Cert.Attn.Point

end
-- ==== Proof.HostSides.lean ====
/-
  The host operations around the kernel call, read at an index.

  Before the call the three [2, 16, 2048, 64] arguments are reshaped to [32, 2048, 64], and the one-bit mask
  [2, 1, 2048, 2048] is reshaped to [2, 2048, 2048] and widened to 32 bits; after it the [32, 2048, 64] and
  [32, 2048, 2048] results are reshaped back to [2, 16, 2048, 64] and [2, 16, 2048, 2048]. A reshape keeps the
  row-major position, so slice g = 16·b + h of a flat array is (b, h) of the four-axis one.
-/
import proofs.«128702_j12051678232671_2_alg».proof.Proof.Idx
import proofs.«128702_j12051678232671_2_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.Attn.Host

open Idealize.ShloMosaic Idealize.ShloMosaic.TcCoe Idealize.ShloMosaic.ValueIdx Idealize.SL.Sem Cert.KernelIdeal Cert.KernelIdeal.Gen Cert.Attn

variable {α : Type}

/-! ## The four reshapes as layout facts -/

/-- Slice g of the flattened array, at (s, d), is the four-axis array at (g / 16, g % 16, s, d). -/
theorem flat_of_bh (x : S2x16x2048x64.Idx → α) (g : Fin 32) (s : Fin 2048) (d : Fin 64) :
    shapeCast S32x2048x64 x Facts₀.shapeCasts_S2x16x2048x64_S32x2048x64 (ix3 g s d) = x (ix4 (sliceBatch g) (sliceHead g) s d) :=
  shapeCast_apply x _ _ _ (by
    rw [Shape.rowMajor_val_four, Shape.rowMajor_val_three]
    show ((g.val / 16 * 16 + g.val % 16) * 2048 + s.val) * 64 + d.val = (g.val * 2048 + s.val) * 64 + d.val
    rw [Nat.div_add_mod' g.val 16])

/-- Dropping the mask's unit axis: (b, s, j) of the three-axis mask is (b, 0, s, j) of the four-axis one. -/
theorem mask_squeeze (x : S2x1x2048x2048.Idx → α) (b : Fin 2) (s j : Fin 2048) :
    shapeCast S2x2048x2048 x Facts₀.shapeCasts_S2x1x2048x2048_S2x2048x2048 (ix3 b s j) = x (ix4 b (0 : Fin 1) s j) :=
  shapeCast_apply x _ _ _ (by
    rw [Shape.rowMajor_val_four, Shape.rowMajor_val_three]
    show ((b.val * 1 + 0) * 2048 + s.val) * 2048 + j.val = (b.val * 2048 + s.val) * 2048 + j.val
    rw [Nat.mul_one, Nat.add_zero])

/-- The output put back on four axes: (b, h, s, d) is slice 16·b + h of the flat result at (s, d). -/
theorem bh_of_flat_out (X : S32x2048x64.Idx → α) (b : Fin 2) (h : Fin 16) (s : Fin 2048) (d : Fin 64) :
    shapeCast S2x16x2048x64 X Facts₀.shapeCasts_S32x2048x64_S2x16x2048x64 (ix4 b h s d) = X (ix3 (sliceOf b h) s d) :=
  shapeCast_apply X _ _ _ (by
    rw [Shape.rowMajor_val_four, Shape.rowMajor_val_three]
    rfl)

/-- The probabilities put back on four axes: (b, h, s, j) is slice 16·b + h of the flat result at (s, j). -/
theorem bh_of_flat_prob (X : S32x2048x2048.Idx → α) (b : Fin 2) (h : Fin 16) (s j : Fin 2048) :
    shapeCast S2x16x2048x2048 X Facts₀.shapeCasts_S32x2048x2048_S2x16x2048x2048 (ix4 b h s j) = X (ix3 (sliceOf b h) s j) :=
  shapeCast_apply X _ _ _ (by
    rw [Shape.rowMajor_val_four, Shape.rowMajor_val_three]
    rfl)

/-! ## The staged arrays when the region is entered

Each of the three float arguments reaches the kernel through one reshape, the mask through a reshape and a widening to
32 bits; no other host operation writes these four arrays before the region. -/

variable {F : FTy → Type} [FloatOps F] (m : (ℓ : Loc nD τ sig) → Buf (Elt F) ℓ)

/-- The first staged array is the first argument, reshaped. -/
theorem V_v0_eq (c : Dev nD) :
    (V m c main_v0 : S32x2048x64.Idx → Elt F .f32)
      = shapeCast S32x2048x64 (m ((c : Thread nD τ).loc main_arg0)) Facts₀.shapeCasts_S2x16x2048x64_S32x2048x64 := by
  show StableHlo.after hostOps0 (fun b => m (c, b)) (Proc.devRef .tc main_v0) = _
  after_results
  rfl

/-- The second staged array is the second argument, reshaped. -/
theorem V_v1_eq (c : Dev nD) :
    (V m c main_v1 : S32x2048x64.Idx → Elt F .f32)
      = shapeCast S32x2048x64 (m ((c : Thread nD τ).loc main_arg1)) Facts₀.shapeCasts_S2x16x2048x64_S32x2048x64 := by
  show StableHlo.after hostOps0 (fun b => m (c, b)) (Proc.devRef .tc main_v1) = _
  after_results
  rfl

/-- The third staged array is the third argument, reshaped. -/
theorem V_v2_eq (c : Dev nD) :
    (V m c main_v2 : S32x2048x64.Idx → Elt F .f32)
      = shapeCast S32x2048x64 (m ((c : Thread nD τ).loc main_arg2)) Facts₀.shapeCasts_S2x16x2048x64_S32x2048x64 := by
  show StableHlo.after hostOps0 (fun b => m (c, b)) (Proc.devRef .tc main_v2) = _
  after_results
  rfl

/-- The staged mask is the one-bit mask with its unit axis dropped, each bit widened to 32 bits with zeros. -/
theorem V_v4_eq (c : Dev nD) :
    (V m c main_v4 : S2x2048x2048.Idx → BitVec 32)
      = extui 32 (shapeCast S2x2048x2048 (m ((c : Thread nD τ).loc main_arg3)) Facts₀.shapeCasts_S2x1x2048x2048_S2x2048x2048) natLt_1_32 := by
  show StableHlo.after hostOps0 (fun b => m (c, b)) (Proc.devRef .tc main_v4) = _
  after_results
  rfl

/-- Slice g of the first staged array at (s, d) is the first argument at (g / 16, g % 16, s, d). -/
theorem V_v0_apply (c : Dev nD) (g : Fin 32) (s : Fin 2048) (d : Fin 64) :
    (V m c main_v0 : S32x2048x64.Idx → Elt F .f32) (ix3 g s d) = m ((c : Thread nD τ).loc main_arg0) (ix4 (sliceBatch g) (sliceHead g) s d) :=
  (congrFun (V_v0_eq m c) (ix3 g s d)).trans (flat_of_bh _ g s d)

/-- Slice g of the second staged array at (s, d) is the second argument at (g / 16, g % 16, s, d). -/
theorem V_v1_apply (c : Dev nD) (g : Fin 32) (s : Fin 2048) (d : Fin 64) :
    (V m c main_v1 : S32x2048x64.Idx → Elt F .f32) (ix3 g s d) = m ((c : Thread nD τ).loc main_arg1) (ix4 (sliceBatch g) (sliceHead g) s d) :=
  (congrFun (V_v1_eq m c) (ix3 g s d)).trans (flat_of_bh _ g s d)

/-- Slice g of the third staged array at (s, d) is the third argument at (g / 16, g % 16, s, d). -/
theorem V_v2_apply (c : Dev nD) (g : Fin 32) (s : Fin 2048) (d : Fin 64) :
    (V m c main_v2 : S32x2048x64.Idx → Elt F .f32) (ix3 g s d) = m ((c : Thread nD τ).loc main_arg2) (ix4 (sliceBatch g) (sliceHead g) s d) :=
  (congrFun (V_v2_eq m c) (ix3 g s d)).trans (flat_of_bh _ g s d)

/-- The staged mask at (b, s, j) is the mask bit at (b, 0, s, j), widened to 32 bits with zeros. -/
theorem V_v4_apply (c : Dev nD) (b : Fin 2) (s j : Fin 2048) :
    (V m c main_v4 : S2x2048x2048.Idx → BitVec 32) (ix3 b s j) = (m ((c : Thread nD τ).loc main_arg3) (ix4 b (0 : Fin 1) s j)).setWidth 32 :=
  (congrFun (V_v4_eq m c) (ix3 b s j)).trans (congrArg (BitVec.setWidth 32) (mask_squeeze _ b s j))

end Cert.Attn.Host

end
-- ==== Proof.Final.lean ====
/-
  The kernel's two results as whole arrays.

  Every grid point writes back one block of each output array: rows 512·qi … of slice g, for the point 4·g + qi. Read
  through the host reshapes before the call, the blocks the body loads there are rows of slice (g / 16, g % 16) of the
  arguments, so what is written back is the block of ONE function of the whole arguments: the specification's
  probabilities and outputs, indexed by the flat slice number. The blocks tile both arrays, so the arrays end at
  those functions; the reshapes after the call turn the flat slice number back into (batch, head).
-/
import proofs.«128702_j12051678232671_2_alg».proof.Proof.Spec
import proofs.«128702_j12051678232671_2_alg».proof.Proof.Idx
import proofs.«128702_j12051678232671_2_alg».proof.Proof.Pieces
import proofs.«128702_j12051678232671_2_alg».proof.Proof.Blocks
import proofs.«128702_j12051678232671_2_alg».proof.Proof.Point
import proofs.«128702_j12051678232671_2_alg».proof.Proof.HostSides
import Idealize.ShloMosaic.Lib.StableHlo.Run

set_option maxRecDepth 16384

noncomputable section

open Idealize.ShloMosaic Idealize.ShloMosaic.TcCoe Idealize.SL.Sem
open Idealize.ShloMosaic.Pipeline (Dat)

namespace Cert.Attn.Final

open Cert.KernelIdeal Cert.KernelIdeal.Gen Idealize.ShloMosaic.ValueIdx Cert.Attn

variable (m : (ℓ : Loc nD τ sig) → Buf (Elt Ideal) ℓ) (ρ : Dev nD → PrngReg)

/-- The attention outputs indexed by the flat slice number: what the [32, 2048, 64] result array ends holding. -/
def flatOut (a0 a1 a2 : S2x16x2048x64.Idx → EReal) (mk : S2x1x2048x2048.Idx → BitVec 1) : S32x2048x64.Idx → EReal :=
  fun x => outAt a0 a1 a2 mk (sliceBatch (x 0)) (sliceHead (x 0)) (x 1) (x 2)

/-- The probabilities indexed by the flat slice number: what the [32, 2048, 2048] result array ends holding. -/
def flatProb (a0 a1 : S2x16x2048x64.Idx → EReal) (mk : S2x1x2048x2048.Idx → BitVec 1) : S32x2048x2048.Idx → EReal :=
  fun x => probAt a0 a1 mk (sliceBatch (x 0)) (sliceHead (x 0)) (x 1) (x 2)

/-- A block index of a [1, 512, n] block by its coordinates. -/
theorem blk_ix (n : Nat) (y : (⟨3, ![1, 512, n]⟩ : Shape).Idx) : y = ix3 (0 : Fin 1) (y 1) (y 2) := by
  funext a
  match a with
  | ⟨0, _⟩ => exact Fin.ext (by have h : (y 0 : Fin 1).val < 1 := (y 0 : Fin 1).isLt; show (y 0 : Fin 1).val = 0; omega)
  | ⟨1, _⟩ => rfl
  | ⟨2, _⟩ => rfl

/-- The mask words of row `r` of the tile at point `t`, tested against zero, are the mask bits of row `s` of batch `b`. -/
theorem mask_point (c : Dev nD) (t : Fin cfg0.N) (r : Fin 512) (j' : Fin 2048) (b : Fin 2) (s : Fin 2048)
    (hb : b.val = t.val / 64) (hs : s.val = 512 * (t.val % 4) + r.val) :
    maskBit (Pieces.maskSlice (grid0.coords t) (iblk m c 3 t) (ix3 (0 : Fin 1) r j'))
      = m ((c : Thread nD τ).loc main_arg3) (ix4 b (0 : Fin 1) s j') := by
  have hq : (grid0.coords t 1).val = t.val % 4 := (Blocks.idx_facts t).2.2.2.2.2.2
  rw [Pieces.maskSlice_apply (grid0.coords t) (iblk m c 3 t) r j' s (by rw [hq]; exact hs),
    Blocks.iblk3_apply m c t s j' b hb, Host.V_v4_apply m c b s j', maskBit_setWidth]

/-- What point `t` writes back to the probability array is block `t` of the probabilities by flat slice. -/
theorem flushed5_eq (c : Dev nD) (t : Fin cfg0.N) :
    (dats m 0 c).flushed 5 t = ((cfg0.win 5).blk t).view.read (Elt Ideal)
      (flatProb (m ((c : Thread nD τ).loc main_arg0)) (m ((c : Thread nD τ).loc main_arg1)) (m ((c : Thread nD τ).loc main_arg3))) := by
  show (cfg0.win 5).cut (grid0.coords t) ((dats m 0 c).after 5 t) = _
  rw [after0_5]
  unfold outsAt0
  dsimp only
  rw [Pieces.out_5]
  funext y
  have hN : cfg0.N = 128 := N_0
  have htl : t.val < 128 := hN ▸ t.isLt
  obtain ⟨r, j, rfl⟩ : ∃ (r : Fin 512) (j : Fin 2048), y = ix3 (0 : Fin 1) r j := ⟨y 1, y 2, blk_ix 2048 y⟩
  have hg : t.val / 4 < 32 := by omega
  have hs : 512 * (t.val % 4) + r.val < 2048 := by have := r.isLt; omega
  rw [Blocks.oblk5_read _ t r j ⟨t.val / 4, hg⟩ ⟨512 * (t.val % 4) + r.val, hs⟩ rfl rfl]
  show k0_pay2 (k0_pay3 (iblk m c 0 t) (iblk m c 1 t) (Pieces.maskSlice (grid0.coords t) (iblk m c 3 t))) (ix3 (0 : Fin 1) r j) = _
  rw [Pay.pay2_apply]
  exact Point.prob_point (iblk m c 0 t) (iblk m c 1 t) (Pieces.maskSlice (grid0.coords t) (iblk m c 3 t))
    (m ((c : Thread nD τ).loc main_arg0)) (m ((c : Thread nD τ).loc main_arg1)) (m ((c : Thread nD τ).loc main_arg3))
    (sliceBatch ⟨t.val / 4, hg⟩) (sliceHead ⟨t.val / 4, hg⟩) ⟨512 * (t.val % 4) + r.val, hs⟩ r
    (fun d => (Blocks.iblk0_apply m c t r d ⟨t.val / 4, hg⟩ ⟨512 * (t.val % 4) + r.val, hs⟩ rfl rfl).trans (Host.V_v0_apply m c _ _ d))
    (fun j' d => (Blocks.iblk1_apply m c t j' d ⟨t.val / 4, hg⟩ rfl).trans (Host.V_v1_apply m c _ j' d))
    (fun j' => mask_point m c t r j' (sliceBatch ⟨t.val / 4, hg⟩) ⟨512 * (t.val % 4) + r.val, hs⟩
      (by show t.val / 4 / 16 = t.val / 64; omega) rfl) j

/-- What point `t` writes back to the attention output array is block `t` of the outputs by flat slice. -/
theorem flushed4_eq (c : Dev nD) (t : Fin cfg0.N) :
    (dats m 0 c).flushed 4 t = ((cfg0.win 4).blk t).view.read (Elt Ideal)
      (flatOut (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold outsAt0
  dsimp only
  rw [Pieces.out_4]
  funext y
  have hN : cfg0.N = 128 := N_0
  have htl : t.val < 128 := hN ▸ t.isLt
  obtain ⟨r, d, rfl⟩ : ∃ (r : Fin 512) (d : Fin 64), y = ix3 (0 : Fin 1) r d := ⟨y 1, y 2, blk_ix 64 y⟩
  have hg : t.val / 4 < 32 := by omega
  have hs : 512 * (t.val % 4) + r.val < 2048 := by have := r.isLt; omega
  rw [Blocks.oblk4_read _ t r d ⟨t.val / 4, hg⟩ ⟨512 * (t.val % 4) + r.val, hs⟩ rfl rfl]
  show k0_pay1 (k0_pay4 (iblk m c 0 t) (iblk m c 1 t) (iblk m c 2 t) (Pieces.maskSlice (grid0.coords t) (iblk m c 3 t))) (ix3 (0 : Fin 1) r d) = _
  rw [Pay.pay1_apply]
  exact Point.out_point (iblk m c 0 t) (iblk m c 1 t) (iblk m c 2 t) (Pieces.maskSlice (grid0.coords t) (iblk m c 3 t))
    (m ((c : Thread nD τ).loc main_arg0)) (m ((c : Thread nD τ).loc main_arg1)) (m ((c : Thread nD τ).loc main_arg2)) (m ((c : Thread nD τ).loc main_arg3))
    (sliceBatch ⟨t.val / 4, hg⟩) (sliceHead ⟨t.val / 4, hg⟩) ⟨512 * (t.val % 4) + r.val, hs⟩ r
    (fun d' => (Blocks.iblk0_apply m c t r d' ⟨t.val / 4, hg⟩ ⟨512 * (t.val % 4) + r.val, hs⟩ rfl rfl).trans (Host.V_v0_apply m c _ _ d'))
    (fun j' d' => (Blocks.iblk1_apply m c t j' d' ⟨t.val / 4, hg⟩ rfl).trans (Host.V_v1_apply m c _ j' d'))
    (fun j' d' => (Blocks.iblk2_apply m c t j' d' ⟨t.val / 4, hg⟩ rfl).trans (Host.V_v2_apply m c _ j' d'))
    (fun j' => mask_point m c t r j' (sliceBatch ⟨t.val / 4, hg⟩) ⟨512 * (t.val % 4) + r.val, hs⟩
      (by show t.val / 4 / 16 = t.val / 64; omega) rfl) d

/-- The probability array after the run. -/
theorem final5 (c : Dev nD) : (dats m 0 c).arrAt 5 cfg0.N
    = flatProb (m ((c : Thread nD τ).loc main_arg0)) (m ((c : Thread nD τ).loc main_arg1)) (m ((c : Thread nD τ).loc main_arg3)) :=
  (dats m 0 c).arrAt_eq_of_cover 5 _ (fun t _ => flushed5_eq m c t) Blocks.cover5

/-- The attention output array after the run. -/
theorem final4 (c : Dev nD) : (dats m 0 c).arrAt 4 cfg0.N
    = flatOut (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t) Blocks.cover4

/-- After the call the [2, 16, 2048, 64] result buffer holds the reshape of the attention output array. -/
theorem tail_v6 (c : Dev nD) :
    Pipeline.afterTail₀ cfgs (dats m) 0 (V0 m) [hostOps1] c main_v6
      = shapeCast S2x16x2048x64 ((dats m 0 c).arrAt 4 cfg0.N) Facts₀.shapeCasts_S32x2048x64_S2x16x2048x64 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v5_0)
      = (dats m 0 c).arrAt 4 cfg0.N := Pipeline.withArrays_arr spec0 launch0.win.arr_inj c _ _ 4
  rw [hw]
  rfl

/-- After the call the [2, 16, 2048, 2048] result buffer holds the reshape of the probability array. -/
theorem tail_v7 (c : Dev nD) :
    Pipeline.afterTail₀ cfgs (dats m) 0 (V0 m) [hostOps1] c main_v7
      = shapeCast S2x16x2048x2048 ((dats m 0 c).arrAt 5 cfg0.N) Facts₀.shapeCasts_S32x2048x2048_S2x16x2048x2048 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.tc.devRef main_v5_1)
      = (dats m 0 c).arrAt 5 cfg0.N := Pipeline.withArrays_arr spec0 launch0.win.arr_inj c _ _ 5
  rw [hw]
  rfl

/-- The outputs by flat slice, reshaped to (batch, head), are the specification's output array: slice 16·b + h has
    batch b and head h. -/
theorem out_unflatten (a0 a1 a2 : S2x16x2048x64.Idx → EReal) (mk : S2x1x2048x2048.Idx → BitVec 1) :
    shapeCast S2x16x2048x64 (flatOut a0 a1 a2 mk) Facts₀.shapeCasts_S32x2048x64_S2x16x2048x64 = outArr a0 a1 a2 mk := by
  funext x
  obtain ⟨b, h, s, d, rfl⟩ : ∃ (b : Fin 2) (h : Fin 16) (s : Fin 2048) (d : Fin 64), x = ix4 b h s d :=
    ⟨x 0, x 1, x 2, x 3, eq_ix4 x⟩
  rw [Host.bh_of_flat_out, outArr_ix4]
  show outAt a0 a1 a2 mk (sliceBatch (sliceOf b h)) (sliceHead (sliceOf b h)) s d = _
  rw [sliceBatch_sliceOf, sliceHead_sliceOf]

/-- The same for the probabilities. -/
theorem prob_unflatten (a0 a1 : S2x16x2048x64.Idx → EReal) (mk : S2x1x2048x2048.Idx → BitVec 1) :
    shapeCast S2x16x2048x2048 (flatProb a0 a1 mk) Facts₀.shapeCasts_S32x2048x2048_S2x16x2048x2048 = probArr a0 a1 mk := by
  funext x
  obtain ⟨b, h, s, j, rfl⟩ : ∃ (b : Fin 2) (h : Fin 16) (s : Fin 2048) (j : Fin 2048), x = ix4 b h s j :=
    ⟨x 0, x 1, x 2, x 3, eq_ix4 x⟩
  rw [Host.bh_of_flat_prob, probArr_ix4]
  show probAt a0 a1 mk (sliceBatch (sliceOf b h)) (sliceHead (sliceOf b h)) s j = _
  rw [sliceBatch_sliceOf, sliceHead_sliceOf]

/-- The kernel's run at the exact instance, read: every weakly fair execution terminates with the two result buffers
    at the specification's output and probability arrays of the arguments, and the arguments unchanged. -/
theorem run : θ_run defs (onTc (τ := τ) (main (F := Ideal))) ⟨m, fun _ => 0, ρ⟩ fun r => ∀ c : Dev nD,
      r.2.mem ((c : Thread nD τ).loc main_v6) = outArr (m ((c : Thread nD τ).loc main_arg0)) (m ((c : Thread nD τ).loc main_arg1)) (m ((c : Thread nD τ).loc main_arg2)) (m ((c : Thread nD τ).loc main_arg3))
      ∧ r.2.mem ((c : Thread nD τ).loc main_v7) = probArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v6 (Pipeline.mem_restRefs_of main_v6 (by decide) (by decide))).trans
        ((tail_v6 m c).trans (by rw [final4]; exact out_unflatten _ _ _ _)),
      ((h c).2 main_v7 (Pipeline.mem_restRefs_of main_v7 (by decide) (by decide))).trans
        ((tail_v7 m c).trans (by rw [final5]; exact prob_unflatten _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Attn.Final

end
-- ==== Proof.lean ====
/-
  Attention with clipped scores and a boolean mask, for q, k, v of shape [2, 16, 2048, 64] and a mask of shape
  [2, 1, 2048, 2048]: a tiled kernel against the plain jnp program, equal on the extended reals.

  Both programs compute, for batch b, head h and query row i: the scores s(j) = clip((q(i,·) · k(j,·)) / 8, lo, hi) where
  the mask bit of (b, i, j) is set and the fill value where it is not; the probabilities p(j) = exp(s(j) - M) / Σ exp(s(·) - M)
  with M the row's maximum; and the output Σ_j p(j) · v(j, d). They differ in arrangement only:

  · the kernel runs on 128 grid points, one per slice 16·b + h and tile of 512 query rows, on arrays flattened over
    (b, h) by reshapes before and after the call, and reads the mask, widened to 32-bit words, by testing the words
    against zero; the reference works on the 4-dimensional arrays with the one-bit mask broadcast over the heads;
  · the kernel multiplies the raw scores by the word 0.125 where the reference divides by the word 8.0: the same
    extended real, since 0.125 is exactly 1/8;
  · the kernel's products and sums are the matrix unit's and the vector unit's, over blocks; the reference's are the
    host's over whole arrays: at the exact instance each is the plain finite sum, whatever its order;
  · the reference takes the maximum of the row maximum with -infinity once more, which changes nothing.

  No law used needs finite inputs, so the precondition is never opened. The kernel's idealization rewrote nothing, so
  that it is the kernel's sanctioned idealization is trivially true. The three frames are the generated frame runs of the
  two kernel programs and the reference's generated run with its results dropped.
-/
import proofs.«128702_j12051678232671_2_alg».proof.Defs
import proofs.«128702_j12051678232671_2_alg».proof.Proof.Gen.Kernel
import proofs.«128702_j12051678232671_2_alg».proof.Proof.Gen.Kernel.Frame
import proofs.«128702_j12051678232671_2_alg».proof.Proof.Gen.KernelIdeal
import proofs.«128702_j12051678232671_2_alg».proof.Proof.Gen.KernelIdeal.Frame
import proofs.«128702_j12051678232671_2_alg».proof.Proof.Gen.ReferenceIdeal
import proofs.«128702_j12051678232671_2_alg».proof.Proof.Gen.Pre_finite_inputs
import proofs.«128702_j12051678232671_2_alg».proof.Proof.Gen.ReferenceIdeal.Run
import proofs.«128702_j12051678232671_2_alg».proof.Proof.Gen.ReferenceIdeal.Read
import proofs.«128702_j12051678232671_2_alg».proof.Proof.Spec
import proofs.«128702_j12051678232671_2_alg».proof.Proof.RefValue
import proofs.«128702_j12051678232671_2_alg».proof.Proof.Final
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- On the extended reals both programs end with the specification's output and probability arrays of arguments
    that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Attn.probArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    Cert.Attn.Final.run m ρ, ?_⟩
  refine (θ_run Cert.ReferenceIdeal.defs _ _).mono (fun _ h c => ?_) (Cert.ReferenceIdeal.Value.run (F := Ideal) m' ρ')
  obtain ⟨h16, h15, hargs⟩ := h c
  obtain ⟨e0, e1, e2, e3⟩ := hagree c
  refine ⟨h16.trans ?_, h15.trans ?_, hargs⟩
  · rw [Cert.ReferenceIdeal.Read.val_main_v16_eq, Cert.Attn.Ref.ref_out, e0, e1, e2, e3]
  · refine (Cert.ReferenceIdeal.Read.val_main_v15_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3))).trans ?_
    rw [Cert.Attn.Ref.ref_prob, e0, e1, e3]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
